-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 66
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S100000x128, .f32⟩
  | .hbm, ⟨43, _⟩ => ⟨S640000x1, .i32⟩
  | .hbm, ⟨44, _⟩ => ⟨S100000x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S100000x128, .f32⟩
  | .hbm, ⟨60, _⟩ => ⟨S640000x1, .i32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S1x640000, .i32⟩
  | .hbm, ⟨40, _⟩ => ⟨S640000, .i32⟩
  | .hbm, ⟨41, _⟩ => ⟨S1x640000, .i32⟩
  | .hbm, ⟨42, _⟩ => ⟨S640000, .i32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S100000x128, .f32⟩
  | .hbm, ⟨54, _⟩ => ⟨S640000x1, .i32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S1x640000, .i32⟩
  | .hbm, ⟨68, _⟩ => ⟨S640000, .i32⟩
  | .hbm, ⟨69, _⟩ => ⟨S1x640000, .i32⟩
  | .hbm, ⟨70, _⟩ => ⟨S640000, .i32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S128x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_4 : Ref sig .tc := ⟨.hbm, 71, rfl⟩
abbrev main_v50 : Ref sig .tc := ⟨.hbm, 72, rfl⟩
abbrev main_v51 : Ref sig .tc := ⟨.hbm, 73, rfl⟩
abbrev main_c_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result named.

  The program is three launches of the tile kernel among stretches of host operations. Its buffers' contents at the
  boundaries between these six pieces are the fold `W0 … W6` of the imported frame module: a stretch of host operations
  applies its operations to the contents before it, a launch replaces its output array by what its grid points wrote
  back and leaves every other buffer alone. Every weakly fair execution terminates with every buffer that outlives
  the launches at the last boundary's contents `W6`; read at the result buffer and at the eleven arguments this is
  the statement below. (The frame module states the same run for the arguments only.)
-/
import proofs.«180709_j70875550319091_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«180709_j70875550319091_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibGraphConvDense.lean ====
/-
  One graph-convolution layer's dense stage, entry by entry, on the extended reals, for any sizes M, K, N.

  For node features x and aggregated neighbour features a (both M x K), two K x N weight matrices wr, wl (already
  transposed: rows are input features) and a bias b of length N, entry (p, q) of the layer is

      ((sum_k x(p,k) * wr(k,q)) + (sum_k a(p,k) * wl(k,q))) + b(q),

  followed, on a hidden layer, by the rectifier max(., 0). This is `lin` / `rect` / `layer` below.
  Two ways of computing it are shown to give exactly this entry:
  * the tile form: both operands cast to the narrow format (the identity on the extended reals), two matrix-unit
    products into zero accumulators, their sum, plus the bias given as a 1 x N row repeated down the rows
    (`tile_apply`, `tileLin_apply`, `tileRelu_apply`);
  * the host form: two rows-times-columns products, their sum, plus the bias vector made a 1 x N row and then
    repeated down the rows (`host_apply`, `hostRelu_apply`).
  Neither uses any law beyond the definitions: the sums run over the same index set in the same order, so nothing
  here asks the entries to be finite.
  An entry reads row p of x and of a, column q of the weights and entry q of the bias only (`lin_rows`,
  `lin_congr`), which is what lets a block of rows be computed on its own.
-/
import Idealize.ShloMosaic.PureOps.Ideal.Laws
import Idealize.ShloMosaic.Lib.ValueIdx
import Idealize.ShloMosaic.Lib.ValueLayout
import Idealize.ShloMosaic.Lib.Pipeline.Value
import proofs.«180709_j70875550319091_1_alg».proof.Proof.LibMatmul
import proofs.«180709_j70875550319091_1_alg».proof.Proof.LibRank2

noncomputable section

namespace Cert.Dense

open Idealize.ShloMosaic Idealize.ShloMosaic.ValueIdx

/-- Entry (p, q) of the layer before the rectifier. -/
def lin {M K N : ℕ} (x a : FVec Ideal ⟨2, ![M, K]⟩ .f32) (wr wl : FVec Ideal ⟨2, ![K, N]⟩ .f32)
    (b : Fin N → EReal) (p : Fin M) (q : Fin N) : EReal :=
  ((∑ k : Fin K, x (ix2 p k) * wr (ix2 k q)) + ∑ k : Fin K, a (ix2 p k) * wl (ix2 k q)) + b q

/-- The rectifier of the hidden layers (the last layer has none). The zero is kept as the float word it is printed as. -/
def rect (relu : Bool) (s : EReal) : EReal :=
  if relu then max s (Ideal.ofBits .f32 0x00000000#32) else s

/-- The layer as a whole M x N array. -/
def layer (relu : Bool) {M K N : ℕ} (x a : FVec Ideal ⟨2, ![M, K]⟩ .f32) (wr wl : FVec Ideal ⟨2, ![K, N]⟩ .f32)
    (b : Fin N → EReal) : FVec Ideal ⟨2, ![M, N]⟩ .f32 :=
  fun i => rect relu (lin x a wr wl b (i 0) (i 1))

theorem layer_apply (relu : Bool) {M K N : ℕ} (x a : FVec Ideal ⟨2, ![M, K]⟩ .f32) (wr wl : FVec Ideal ⟨2, ![K, N]⟩ .f32)
    (b : Fin N → EReal) (p : Fin M) (q : Fin N) :
    layer relu x a wr wl b (ix2 p q) = rect relu (lin x a wr wl b p q) := rfl

/-- An entry reads one row of the node features and one row of the aggregated features. -/
theorem lin_rows {M M' K N : ℕ} (x a : FVec Ideal ⟨2, ![M, K]⟩ .f32) (X A : FVec Ideal ⟨2, ![M', K]⟩ .f32)
    (wr wl : FVec Ideal ⟨2, ![K, N]⟩ .f32) (b : Fin N → EReal) (p : Fin M) (P : Fin M')
    (hx : ∀ k : Fin K, x (ix2 p k) = X (ix2 P k)) (ha : ∀ k : Fin K, a (ix2 p k) = A (ix2 P k)) (q : Fin N) :
    lin x a wr wl b p q = lin X A wr wl b P q := by
  unfold lin
  simp only [hx, ha]

/-- The same, with every operand read where it is needed: the entry only uses row p of the features, column q of the
    weights and entry q of the bias. -/
theorem lin_congr {M M' K N : ℕ} (x a : FVec Ideal ⟨2, ![M, K]⟩ .f32) (X A : FVec Ideal ⟨2, ![M', K]⟩ .f32)
    (wr wl WR WL : FVec Ideal ⟨2, ![K, N]⟩ .f32) (b B : Fin N → EReal) (p : Fin M) (P : Fin M') (q Q : Fin N)
    (hx : ∀ k : Fin K, x (ix2 p k) = X (ix2 P k)) (ha : ∀ k : Fin K, a (ix2 p k) = A (ix2 P k))
    (hwr : ∀ k : Fin K, wr (ix2 k q) = WR (ix2 k Q)) (hwl : ∀ k : Fin K, wl (ix2 k q) = WL (ix2 k Q))
    (hb : b q = B Q) : lin x a wr wl b p q = lin X A WR WL B P Q := by
  unfold lin
  simp only [hx, ha, hwr, hwl, hb]

/-- A 1 x N row repeated down M rows reads at (p, q) as the row's entry (0, q). -/
theorem rowDown_apply {M N : ℕ} (b2 : FVec Ideal ⟨2, ![1, N]⟩ .f32) (hb : (⟨2, ![1, N]⟩ : Shape).Broadcasts ⟨2, ![M, N]⟩)
    (p : Fin M) (q : Fin N) : broadcastTo ⟨2, ![M, N]⟩ b2 hb (ix2 p q) = b2 (ix2 (0 : Fin 1) q) := by
  refine broadcastTo_apply b2 hb (ix2 p q) (ix2 (0 : Fin 1) q) fun a => ?_
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The tile form without the rectifier. -/
theorem tile_apply {M K N : ℕ}
    (wf : DotDims.WF ⟨2, ![M, K]⟩ ⟨2, ![K, N]⟩ ⟨2, ![M, N]⟩ [1] [0] [0] [1] [] [])
    (hlt : FTy.bf16.bits < FTy.f32.bits) (hb : (⟨2, ![1, N]⟩ : Shape).Broadcasts ⟨2, ![M, N]⟩)
    (x a : FVec Ideal ⟨2, ![M, K]⟩ .f32) (wr wl : FVec Ideal ⟨2, ![K, N]⟩ .f32) (b2 : FVec Ideal ⟨2, ![1, N]⟩ .f32)
    (p : Fin M) (q : Fin N) :
    addf (addf (matmul (Cert.MatmulAt.plainDims wf) none (truncf .bf16 x hlt) (truncf .bf16 wr hlt) (constant (F := Ideal) ⟨2, ![M, N]⟩ .f32 0x00000000#32))
               (matmul (Cert.MatmulAt.plainDims wf) none (truncf .bf16 a hlt) (truncf .bf16 wl hlt) (constant (F := Ideal) ⟨2, ![M, N]⟩ .f32 0x00000000#32)))
         (broadcastTo ⟨2, ![M, N]⟩ b2 hb) (ix2 p q)
      = lin x a wr wl (fun q => b2 (ix2 (0 : Fin 1) q)) p q := by
  show (matmul (Cert.MatmulAt.plainDims wf) none (truncf .bf16 x hlt) (truncf .bf16 wr hlt) _ (ix2 p q)
        + matmul (Cert.MatmulAt.plainDims wf) none (truncf .bf16 a hlt) (truncf .bf16 wl hlt) _ (ix2 p q))
        + broadcastTo ⟨2, ![M, N]⟩ b2 hb (ix2 p q) = _
  rw [Cert.MatmulAt.matmul_zero_plain_apply, Cert.MatmulAt.matmul_zero_plain_apply, rowDown_apply]
  rfl

/-- The tile form of the last layer (no rectifier), stated with `rect`. -/
theorem tileLin_apply {M K N : ℕ}
    (wf : DotDims.WF ⟨2, ![M, K]⟩ ⟨2, ![K, N]⟩ ⟨2, ![M, N]⟩ [1] [0] [0] [1] [] [])
    (hlt : FTy.bf16.bits < FTy.f32.bits) (hb : (⟨2, ![1, N]⟩ : Shape).Broadcasts ⟨2, ![M, N]⟩)
    (x a : FVec Ideal ⟨2, ![M, K]⟩ .f32) (wr wl : FVec Ideal ⟨2, ![K, N]⟩ .f32) (b2 : FVec Ideal ⟨2, ![1, N]⟩ .f32)
    (p : Fin M) (q : Fin N) :
    addf (addf (matmul (Cert.MatmulAt.plainDims wf) none (truncf .bf16 x hlt) (truncf .bf16 wr hlt) (constant (F := Ideal) ⟨2, ![M, N]⟩ .f32 0x00000000#32))
               (matmul (Cert.MatmulAt.plainDims wf) none (truncf .bf16 a hlt) (truncf .bf16 wl hlt) (constant (F := Ideal) ⟨2, ![M, N]⟩ .f32 0x00000000#32)))
         (broadcastTo ⟨2, ![M, N]⟩ b2 hb) (ix2 p q)
      = rect false (lin x a wr wl (fun q => b2 (ix2 (0 : Fin 1) q)) p q) :=
  (tile_apply wf hlt hb x a wr wl b2 p q).trans rfl

/-- The tile form with the rectifier. -/
theorem tileRelu_apply {M K N : ℕ}
    (wf : DotDims.WF ⟨2, ![M, K]⟩ ⟨2, ![K, N]⟩ ⟨2, ![M, N]⟩ [1] [0] [0] [1] [] [])
    (hlt : FTy.bf16.bits < FTy.f32.bits) (hb : (⟨2, ![1, N]⟩ : Shape).Broadcasts ⟨2, ![M, N]⟩)
    (x a : FVec Ideal ⟨2, ![M, K]⟩ .f32) (wr wl : FVec Ideal ⟨2, ![K, N]⟩ .f32) (b2 : FVec Ideal ⟨2, ![1, N]⟩ .f32)
    (p : Fin M) (q : Fin N) :
    maximumf (addf (addf (matmul (Cert.MatmulAt.plainDims wf) none (truncf .bf16 x hlt) (truncf .bf16 wr hlt) (constant (F := Ideal) ⟨2, ![M, N]⟩ .f32 0x00000000#32))
               (matmul (Cert.MatmulAt.plainDims wf) none (truncf .bf16 a hlt) (truncf .bf16 wl hlt) (constant (F := Ideal) ⟨2, ![M, N]⟩ .f32 0x00000000#32)))
         (broadcastTo ⟨2, ![M, N]⟩ b2 hb)) (broadcast ⟨2, ![M, N]⟩ (Scalar.ofBits (F := Ideal) .f32 0x00000000#32)) (ix2 p q)
      = rect true (lin x a wr wl (fun q => b2 (ix2 (0 : Fin 1) q)) p q) := by
  refine (congrArg (fun s : EReal => max s (Ideal.ofBits .f32 0x00000000#32)) (tile_apply wf hlt hb x a wr wl b2 p q)).trans ?_
  rfl

/-- The host form without the rectifier. -/
theorem host_apply {M K N : ℕ}
    (wf : DotDims.WF ⟨2, ![M, K]⟩ ⟨2, ![K, N]⟩ ⟨2, ![M, N]⟩ [1] [0] [0] [1] [] [])
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2))
    (x a : FVec Ideal ⟨2, ![M, K]⟩ .f32) (wr wl : FVec Ideal ⟨2, ![K, N]⟩ .f32) (b : FVec Ideal ⟨1, ![N]⟩ .f32)
    (p : Fin M) (q : Fin N) :
    addf (addf (Host.dotGeneral (F := Ideal) (Cert.MatmulAt.plainDims wf) none x wr)
               (Host.dotGeneral (F := Ideal) (Cert.MatmulAt.plainDims wf) none a wl))
         (broadcastInDim ⟨2, ![M, N]⟩ ![0, 1] h₂ (broadcastInDim ⟨2, ![1, N]⟩ ![1] h₁ b)) (ix2 p q)
      = lin x a wr wl (fun q => b (ix1 q)) p q := by
  show (Host.dotGeneral (F := Ideal) (Cert.MatmulAt.plainDims wf) none x wr (ix2 p q)
        + Host.dotGeneral (F := Ideal) (Cert.MatmulAt.plainDims wf) none a wl (ix2 p q))
        + broadcastInDim ⟨2, ![M, N]⟩ ![0, 1] h₂ (broadcastInDim ⟨2, ![1, N]⟩ ![1] h₁ b) (ix2 p q) = _
  rw [Cert.Rank2.dotGeneral_plain_apply, Cert.Rank2.dotGeneral_plain_apply, Cert.Rank2.rowBias_apply]
  rfl

/-- The host form with the rectifier: the maximum with a zero scalar repeated over the whole array. -/
theorem hostRelu_apply {M K N : ℕ}
    (wf : DotDims.WF ⟨2, ![M, K]⟩ ⟨2, ![K, N]⟩ ⟨2, ![M, N]⟩ [1] [0] [0] [1] [] [])
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2))
    (h₀ : (⟨0, ![]⟩ : Shape).BroadcastsInDim ⟨2, ![M, N]⟩ (![] : Fin 0 → Fin 2))
    (x a : FVec Ideal ⟨2, ![M, K]⟩ .f32) (wr wl : FVec Ideal ⟨2, ![K, N]⟩ .f32) (b : FVec Ideal ⟨1, ![N]⟩ .f32)
    (p : Fin M) (q : Fin N) :
    maximumf (addf (addf (Host.dotGeneral (F := Ideal) (Cert.MatmulAt.plainDims wf) none x wr)
               (Host.dotGeneral (F := Ideal) (Cert.MatmulAt.plainDims wf) none a wl))
         (broadcastInDim ⟨2, ![M, N]⟩ ![0, 1] h₂ (broadcastInDim ⟨2, ![1, N]⟩ ![1] h₁ b)))
      (broadcastInDim ⟨2, ![M, N]⟩ ![] h₀ (constant (F := Ideal) ⟨0, ![]⟩ .f32 0x00000000#32)) (ix2 p q)
      = rect true (lin x a wr wl (fun q => b (ix1 q)) p q) := by
  have hz : broadcastInDim (s := ⟨0, ![]⟩) ⟨2, ![M, N]⟩ ![] h₀ (constant (F := Ideal) ⟨0, ![]⟩ .f32 0x00000000#32) (ix2 p q)
      = Ideal.ofBits .f32 0x00000000#32 :=
    (broadcastInDim_apply (s := ⟨0, ![]⟩) (t := ⟨2, ![M, N]⟩) ![] h₀ (constant (F := Ideal) ⟨0, ![]⟩ .f32 0x00000000#32) (ix2 p q)
      (fun a => a.elim0) (fun a => a.elim0)).trans rfl
  show max (addf (addf _ _) _ (ix2 p q)) (broadcastInDim (s := ⟨0, ![]⟩) ⟨2, ![M, N]⟩ ![] h₀ _ (ix2 p q)) = _
  rw [hz, host_apply wf h₁ h₂ x a wr wl b p q]
  rfl

end Cert.Dense

end
-- ==== Proof.Region0.lean ====
/-
  Launch 0 of the tile kernel, read as a whole array.

  The grid has 20 points; point t stages rows 5000 t … 5000 t + 4999 of the node features and of the aggregated
  features, the two weight matrices and the bias row whole, computes the layer's entries for those rows
  (`Dense.lin`, rectified), and writes them back as rows 5000 t … 5000 t + 4999 of the output. An entry of the layer
  reads one row of each feature array, so the block a point computes is the block of the layer of the WHOLE arrays;
  the 20 blocks tile the 100000 rows, so after the launch the output array is that layer — whatever the arrays hold
  when the launch is entered (`V`).
-/
import proofs.«180709_j70875550319091_1_alg».proof.Proof.Gen.KernelIdeal.Frame
import proofs.«180709_j70875550319091_1_alg».proof.Proof.LibGraphConvDense
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's stored value at entry (p, q): the layer's entry over the staged blocks. The identity re-shapings drop out. -/
theorem pay_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = Dense.rect true (Dense.lin x0 x1 x2 x3 (fun q => x4 (ix2 (0 : Fin 1) q)) p q) := by
  unfold k0_pay1
  refine (Dense.tileRelu_apply dot_S5000x128_S128x128_S5000x128_1_0_0_1_n_n_wf bitsLt_bf16_f32 broadcasts_S1x128_S5000x128
    x0 (shapeCast S5000x128 x1 shapeCasts_S5000x128_S5000x128)
    (shapeCast S128x128 x2 shapeCasts_S128x128_S128x128) (shapeCast S128x128 x3 shapeCasts_S128x128_S128x128)
    (shapeCast S1x128 x4 shapeCasts_S1x128_S1x128) p q).trans ?_
  simp only [shapeCast_self]

/-- The index maps over the grid: the feature windows and the output move one block of rows per point, the weights
    and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole array the launch leaves in its output, as a function of the arrays it finds. -/
abbrev whole (c : Dev nD) : FVec Ideal S100000x128 .f32 :=
  Dense.layer (M := 100000) (K := 128) (N := 128) true (V c main_arg0) (V c main_v13) (V c main_v14) (V c main_v15) (fun q => (V c main_v16 : FVec Ideal S1x128 .f32) (ix2 (0 : Fin 1) q))

/-- What point t writes back is block t of `whole`. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (congrArg (k0_pay1 (F := Ideal) (iblk0 V c 0 t) (iblk0 V c 1 t) (iblk0 V c 2 t) (iblk0 V c 3 t) (iblk0 V c 4 t)) (eq_ix2 j)).trans ?_
  refine (pay_apply (iblk0 V c 0 t) (iblk0 V c 1 t) (iblk0 V c 2 t) (iblk0 V c 3 t) (iblk0 V c 4 t) (j 0) (j 1)).trans ?_
  show Dense.rect true (Dense.lin (M := 5000) (K := 128) (N := 128) (iblk0 V c 0 t) (iblk0 V c 1 t) (iblk0 V c 2 t) (iblk0 V c 3 t)
        (fun q => iblk0 V c 4 t (ix2 (0 : Fin 1) q)) (j 0) (j 1))
      = Dense.rect true (Dense.lin (M := 100000) (K := 128) (N := 128) (V c main_arg0) (V c main_v13) (V c main_v14) (V c main_v15)
        (fun q => (V c main_v16 : FVec Ideal S1x128 .f32) (ix2 (0 : Fin 1) q)) (((cfg0.win 5).blk t).view.emb j 0) (((cfg0.win 5).blk t).view.emb j 1))
  refine congrArg (Dense.rect true) (Dense.lin_congr _ _ _ _ _ _ _ _ _ _ _ _ _ _
    (fun k => ?_) (fun k => ?_) (fun k => ?_) (fun k => ?_) ?_)
  · show (V c main_arg0 : FVec Ideal S100000x128 .f32) (((cfg0.win 0).blk t).view.emb (ix2 (j 0) k))
      = (V c main_arg0 : FVec Ideal S100000x128 .f32) (ix2 (((cfg0.win 5).blk t).view.emb j 0) k)
    refine congrArg _ (funext fun a => Fin.ext ?_)
    match a with
    | ⟨0, _⟩ => show win0_0.index t (0 : Fin 2) * 5000 + 1 * (j 0).val = win0_5.index t (0 : Fin 2) * 5000 + 1 * (j 0).val; rw [e00, e50]
    | ⟨1, _⟩ => show win0_0.index t (1 : Fin 2) * 128 + 1 * k.val = k.val; rw [e01]; omega
  · show (V c main_v13 : FVec Ideal S100000x128 .f32) (((cfg0.win 1).blk t).view.emb (ix2 (j 0) k))
      = (V c main_v13 : FVec Ideal S100000x128 .f32) (ix2 (((cfg0.win 5).blk t).view.emb j 0) k)
    refine congrArg _ (funext fun a => Fin.ext ?_)
    match a with
    | ⟨0, _⟩ => show win0_1.index t (0 : Fin 2) * 5000 + 1 * (j 0).val = win0_5.index t (0 : Fin 2) * 5000 + 1 * (j 0).val; rw [e10, e50]
    | ⟨1, _⟩ => show win0_1.index t (1 : Fin 2) * 128 + 1 * k.val = k.val; rw [e11]; omega
  · show (V c main_v14 : FVec Ideal S128x128 .f32) (((cfg0.win 2).blk t).view.emb (ix2 k (j 1)))
      = (V c main_v14 : FVec Ideal S128x128 .f32) (ix2 k (((cfg0.win 5).blk t).view.emb j 1))
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = win0_5.index t (1 : Fin 2) * 128 + 1 * (j 1).val; rw [e21, e51]
  · show (V c main_v15 : FVec Ideal S128x128 .f32) (((cfg0.win 3).blk t).view.emb (ix2 k (j 1)))
      = (V c main_v15 : FVec Ideal S128x128 .f32) (ix2 k (((cfg0.win 5).blk t).view.emb j 1))
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = win0_5.index t (1 : Fin 2) * 128 + 1 * (j 1).val; rw [e31, e51]
  · show (V c main_v16 : FVec Ideal S1x128 .f32) (((cfg0.win 4).blk t).view.emb (ix2 (0 : Fin 1) (j 1)))
      = (V c main_v16 : FVec Ideal S1x128 .f32) (ix2 (0 : Fin 1) (((cfg0.win 5).blk t).view.emb j 1))
    refine congrArg _ (funext fun a => Fin.ext ?_)
    match a with
    | ⟨0, _⟩ => show win0_4.index t (0 : Fin 2) * 1 + 1 * 0 = 0; rw [e40]
    | ⟨1, _⟩ => show win0_4.index t (1 : Fin 2) * 128 + 1 * (j 1).val = win0_5.index t (1 : Fin 2) * 128 + 1 * (j 1).val; rw [e41, e51]

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Row r of the output lies in the block of point r / 5000: the 20 blocks tile the 100000 rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 5000, lt_of_lt_of_eq (show (i 0).val / 5000 < 20 by omega) N_0.symm⟩, flush0_5 _, ?_⟩
  rw [mem_blk]
  obtain ⟨-, -, -, -, -, -, -, -, -, -, e50, e51⟩ := idx_facts ⟨(i 0).val / 5000, lt_of_lt_of_eq (show (i 0).val / 5000 < 20 by omega) N_0.symm⟩
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, _⟩ (1 : Fin 2) * 128 ≤ (i 1).val
      ∧ (i 1).val < win0_5.index ⟨(i 0).val / 5000, _⟩ (1 : Fin 2) * 128 + 128
    rw [e51]
    omega

/-- After the launch the output array is the layer of the arrays the launch found. -/
theorem arr_eq (c : Dev nD) : (dat0 V c).arrAt 5 cfg0.N = whole V c :=
  (dat0 V c).arrAt_eq_of_cover 5 (whole V c) (fun t _ => flushed_eq V c t) (cover)

end Cert.KernelIdeal.Region0

end
-- ==== Proof.Region1.lean ====
/-
  Launch 1 of the tile kernel, read as a whole array.

  The grid has 20 points; point t stages rows 5000 t … 5000 t + 4999 of the node features and of the aggregated
  features, the two weight matrices and the bias row whole, computes the layer's entries for those rows
  (`Dense.lin`, rectified), and writes them back as rows 5000 t … 5000 t + 4999 of the output. An entry of the layer
  reads one row of each feature array, so the block a point computes is the block of the layer of the WHOLE arrays;
  the 20 blocks tile the 100000 rows, so after the launch the output array is that layer — whatever the arrays hold
  when the launch is entered (`V`).
-/
import proofs.«180709_j70875550319091_1_alg».proof.Proof.Gen.KernelIdeal.Frame
import proofs.«180709_j70875550319091_1_alg».proof.Proof.LibGraphConvDense
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's stored value at entry (p, q): the layer's entry over the staged blocks. The identity re-shapings drop out. -/
theorem pay_apply (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = Dense.rect true (Dense.lin x0 x1 x2 x3 (fun q => x4 (ix2 (0 : Fin 1) q)) p q) := by
  unfold k1_pay1
  refine (Dense.tileRelu_apply dot_S5000x128_S128x128_S5000x128_1_0_0_1_n_n_wf bitsLt_bf16_f32 broadcasts_S1x128_S5000x128
    (shapeCast S5000x128 x0 shapeCasts_S5000x128_S5000x128) (shapeCast S5000x128 x1 shapeCasts_S5000x128_S5000x128)
    (shapeCast S128x128 x2 shapeCasts_S128x128_S128x128) (shapeCast S128x128 x3 shapeCasts_S128x128_S128x128)
    (shapeCast S1x128 x4 shapeCasts_S1x128_S1x128) p q).trans ?_
  simp only [shapeCast_self]

/-- The index maps over the grid: the feature windows and the output move one block of rows per point, the weights
    and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole array the launch leaves in its output, as a function of the arrays it finds. -/
abbrev whole (c : Dev nD) : FVec Ideal S100000x128 .f32 :=
  Dense.layer (M := 100000) (K := 128) (N := 128) true (V c main_v17) (V c main_v27) (V c main_v28) (V c main_v29) (fun q => (V c main_v30 : FVec Ideal S1x128 .f32) (ix2 (0 : Fin 1) q))

/-- What point t writes back is block t of `whole`. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (congrArg (k1_pay1 (F := Ideal) (iblk1 V c 0 t) (iblk1 V c 1 t) (iblk1 V c 2 t) (iblk1 V c 3 t) (iblk1 V c 4 t)) (eq_ix2 j)).trans ?_
  refine (pay_apply (iblk1 V c 0 t) (iblk1 V c 1 t) (iblk1 V c 2 t) (iblk1 V c 3 t) (iblk1 V c 4 t) (j 0) (j 1)).trans ?_
  show Dense.rect true (Dense.lin (M := 5000) (K := 128) (N := 128) (iblk1 V c 0 t) (iblk1 V c 1 t) (iblk1 V c 2 t) (iblk1 V c 3 t)
        (fun q => iblk1 V c 4 t (ix2 (0 : Fin 1) q)) (j 0) (j 1))
      = Dense.rect true (Dense.lin (M := 100000) (K := 128) (N := 128) (V c main_v17) (V c main_v27) (V c main_v28) (V c main_v29)
        (fun q => (V c main_v30 : FVec Ideal S1x128 .f32) (ix2 (0 : Fin 1) q)) (((cfg1.win 5).blk t).view.emb j 0) (((cfg1.win 5).blk t).view.emb j 1))
  refine congrArg (Dense.rect true) (Dense.lin_congr _ _ _ _ _ _ _ _ _ _ _ _ _ _
    (fun k => ?_) (fun k => ?_) (fun k => ?_) (fun k => ?_) ?_)
  · show (V c main_v17 : FVec Ideal S100000x128 .f32) (((cfg1.win 0).blk t).view.emb (ix2 (j 0) k))
      = (V c main_v17 : FVec Ideal S100000x128 .f32) (ix2 (((cfg1.win 5).blk t).view.emb j 0) k)
    refine congrArg _ (funext fun a => Fin.ext ?_)
    match a with
    | ⟨0, _⟩ => show win1_0.index t (0 : Fin 2) * 5000 + 1 * (j 0).val = win1_5.index t (0 : Fin 2) * 5000 + 1 * (j 0).val; rw [e00, e50]
    | ⟨1, _⟩ => show win1_0.index t (1 : Fin 2) * 128 + 1 * k.val = k.val; rw [e01]; omega
  · show (V c main_v27 : FVec Ideal S100000x128 .f32) (((cfg1.win 1).blk t).view.emb (ix2 (j 0) k))
      = (V c main_v27 : FVec Ideal S100000x128 .f32) (ix2 (((cfg1.win 5).blk t).view.emb j 0) k)
    refine congrArg _ (funext fun a => Fin.ext ?_)
    match a with
    | ⟨0, _⟩ => show win1_1.index t (0 : Fin 2) * 5000 + 1 * (j 0).val = win1_5.index t (0 : Fin 2) * 5000 + 1 * (j 0).val; rw [e10, e50]
    | ⟨1, _⟩ => show win1_1.index t (1 : Fin 2) * 128 + 1 * k.val = k.val; rw [e11]; omega
  · show (V c main_v28 : FVec Ideal S128x128 .f32) (((cfg1.win 2).blk t).view.emb (ix2 k (j 1)))
      = (V c main_v28 : FVec Ideal S128x128 .f32) (ix2 k (((cfg1.win 5).blk t).view.emb j 1))
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = win1_5.index t (1 : Fin 2) * 128 + 1 * (j 1).val; rw [e21, e51]
  · show (V c main_v29 : FVec Ideal S128x128 .f32) (((cfg1.win 3).blk t).view.emb (ix2 k (j 1)))
      = (V c main_v29 : FVec Ideal S128x128 .f32) (ix2 k (((cfg1.win 5).blk t).view.emb j 1))
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 128 + 1 * (j 1).val = win1_5.index t (1 : Fin 2) * 128 + 1 * (j 1).val; rw [e31, e51]
  · show (V c main_v30 : FVec Ideal S1x128 .f32) (((cfg1.win 4).blk t).view.emb (ix2 (0 : Fin 1) (j 1)))
      = (V c main_v30 : FVec Ideal S1x128 .f32) (ix2 (0 : Fin 1) (((cfg1.win 5).blk t).view.emb j 1))
    refine congrArg _ (funext fun a => Fin.ext ?_)
    match a with
    | ⟨0, _⟩ => show win1_4.index t (0 : Fin 2) * 1 + 1 * 0 = 0; rw [e40]
    | ⟨1, _⟩ => show win1_4.index t (1 : Fin 2) * 128 + 1 * (j 1).val = win1_5.index t (1 : Fin 2) * 128 + 1 * (j 1).val; rw [e41, e51]

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- Row r of the output lies in the block of point r / 5000: the 20 blocks tile the 100000 rows. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, lt_of_lt_of_eq (show (i 0).val / 5000 < 20 by omega) N_1.symm⟩, flush1_5 _, ?_⟩
  rw [mem_blk]
  obtain ⟨-, -, -, -, -, -, -, -, -, -, e50, e51⟩ := idx_facts ⟨(i 0).val / 5000, lt_of_lt_of_eq (show (i 0).val / 5000 < 20 by omega) N_1.symm⟩
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, _⟩ (1 : Fin 2) * 128 ≤ (i 1).val
      ∧ (i 1).val < win1_5.index ⟨(i 0).val / 5000, _⟩ (1 : Fin 2) * 128 + 128
    rw [e51]
    omega

/-- After the launch the output array is the layer of the arrays the launch found. -/
theorem arr_eq (c : Dev nD) : (dat1 V c).arrAt 5 cfg1.N = whole V c :=
  (dat1 V c).arrAt_eq_of_cover 5 (whole V c) (fun t _ => flushed_eq V c t) (cover)

end Cert.KernelIdeal.Region1

end
-- ==== Proof.Region2.lean ====
/-
  Launch 2 of the tile kernel, read as a whole array.

  The grid has 20 points; point t stages rows 5000 t … 5000 t + 4999 of the node features and of the aggregated
  features, the two weight matrices and the bias row whole, computes the layer's entries for those rows
  (`Dense.lin`), and writes them back as rows 5000 t … 5000 t + 4999 of the output. An entry of the layer
  reads one row of each feature array, so the block a point computes is the block of the layer of the WHOLE arrays;
  the 20 blocks tile the 100000 rows, so after the launch the output array is that layer — whatever the arrays hold
  when the launch is entered (`V`).
-/
import proofs.«180709_j70875550319091_1_alg».proof.Proof.Gen.KernelIdeal.Frame
import proofs.«180709_j70875550319091_1_alg».proof.Proof.LibGraphConvDense
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's stored value at entry (p, q): the layer's entry over the staged blocks. The identity re-shapings drop out. -/
theorem pay_apply (x0 x1 : FVec Ideal S5000x128 .f32) (x2 x3 : FVec Ideal S128x128 .f32) (x4 : FVec Ideal S1x128 .f32)
    (p : Fin 5000) (q : Fin 128) :
    k2_pay1 (F := Ideal) x0 x1 x2 x3 x4 (ix2 p q)
      = Dense.rect false (Dense.lin x0 x1 x2 x3 (fun q => x4 (ix2 (0 : Fin 1) q)) p q) := by
  unfold k2_pay1
  refine (Dense.tileLin_apply dot_S5000x128_S128x128_S5000x128_1_0_0_1_n_n_wf bitsLt_bf16_f32 broadcasts_S1x128_S5000x128
    (shapeCast S5000x128 x0 shapeCasts_S5000x128_S5000x128) (shapeCast S5000x128 x1 shapeCasts_S5000x128_S5000x128)
    (shapeCast S128x128 x2 shapeCasts_S128x128_S128x128) (shapeCast S128x128 x3 shapeCasts_S128x128_S128x128)
    (shapeCast S1x128 x4 shapeCasts_S1x128_S1x128) p q).trans ?_
  simp only [shapeCast_self]

/-- The index maps over the grid: the feature windows and the output move one block of rows per point, the weights
    and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole array the launch leaves in its output, as a function of the arrays it finds. -/
abbrev whole (c : Dev nD) : FVec Ideal S100000x128 .f32 :=
  Dense.layer (M := 100000) (K := 128) (N := 128) false (V c main_v31) (V c main_v41) (V c main_v42) (V c main_v43) (fun q => (V c main_v44 : FVec Ideal S1x128 .f32) (ix2 (0 : Fin 1) q))

/-- What point t writes back is block t of `whole`. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (congrArg (k2_pay1 (F := Ideal) (iblk2 V c 0 t) (iblk2 V c 1 t) (iblk2 V c 2 t) (iblk2 V c 3 t) (iblk2 V c 4 t)) (eq_ix2 j)).trans ?_
  refine (pay_apply (iblk2 V c 0 t) (iblk2 V c 1 t) (iblk2 V c 2 t) (iblk2 V c 3 t) (iblk2 V c 4 t) (j 0) (j 1)).trans ?_
  show Dense.rect false (Dense.lin (M := 5000) (K := 128) (N := 128) (iblk2 V c 0 t) (iblk2 V c 1 t) (iblk2 V c 2 t) (iblk2 V c 3 t)
        (fun q => iblk2 V c 4 t (ix2 (0 : Fin 1) q)) (j 0) (j 1))
      = Dense.rect false (Dense.lin (M := 100000) (K := 128) (N := 128) (V c main_v31) (V c main_v41) (V c main_v42) (V c main_v43)
        (fun q => (V c main_v44 : FVec Ideal S1x128 .f32) (ix2 (0 : Fin 1) q)) (((cfg2.win 5).blk t).view.emb j 0) (((cfg2.win 5).blk t).view.emb j 1))
  refine congrArg (Dense.rect false) (Dense.lin_congr _ _ _ _ _ _ _ _ _ _ _ _ _ _
    (fun k => ?_) (fun k => ?_) (fun k => ?_) (fun k => ?_) ?_)
  · show (V c main_v31 : FVec Ideal S100000x128 .f32) (((cfg2.win 0).blk t).view.emb (ix2 (j 0) k))
      = (V c main_v31 : FVec Ideal S100000x128 .f32) (ix2 (((cfg2.win 5).blk t).view.emb j 0) k)
    refine congrArg _ (funext fun a => Fin.ext ?_)
    match a with
    | ⟨0, _⟩ => show win2_0.index t (0 : Fin 2) * 5000 + 1 * (j 0).val = win2_5.index t (0 : Fin 2) * 5000 + 1 * (j 0).val; rw [e00, e50]
    | ⟨1, _⟩ => show win2_0.index t (1 : Fin 2) * 128 + 1 * k.val = k.val; rw [e01]; omega
  · show (V c main_v41 : FVec Ideal S100000x128 .f32) (((cfg2.win 1).blk t).view.emb (ix2 (j 0) k))
      = (V c main_v41 : FVec Ideal S100000x128 .f32) (ix2 (((cfg2.win 5).blk t).view.emb j 0) k)
    refine congrArg _ (funext fun a => Fin.ext ?_)
    match a with
    | ⟨0, _⟩ => show win2_1.index t (0 : Fin 2) * 5000 + 1 * (j 0).val = win2_5.index t (0 : Fin 2) * 5000 + 1 * (j 0).val; rw [e10, e50]
    | ⟨1, _⟩ => show win2_1.index t (1 : Fin 2) * 128 + 1 * k.val = k.val; rw [e11]; omega
  · show (V c main_v42 : FVec Ideal S128x128 .f32) (((cfg2.win 2).blk t).view.emb (ix2 k (j 1)))
      = (V c main_v42 : FVec Ideal S128x128 .f32) (ix2 k (((cfg2.win 5).blk t).view.emb j 1))
    refine congrArg _ (funext fun a => Fin.ext ?_)
    match a with
    | ⟨0, _⟩ => show win2_2.index t (0 : Fin 2) * 128 + 1 * k.val = k.val; rw [e20]; omega
    | ⟨1, _⟩ => show win2_2.index t (1 : Fin 2) * 128 + 1 * (j 1).val = win2_5.index t (1 : Fin 2) * 128 + 1 * (j 1).val; rw [e21, e51]
  · show (V c main_v43 : FVec Ideal S128x128 .f32) (((cfg2.win 3).blk t).view.emb (ix2 k (j 1)))
      = (V c main_v43 : FVec Ideal S128x128 .f32) (ix2 k (((cfg2.win 5).blk t).view.emb j 1))
    refine congrArg _ (funext fun a => Fin.ext ?_)
    match a with
    | ⟨0, _⟩ => show win2_3.index t (0 : Fin 2) * 128 + 1 * k.val = k.val; rw [e30]; omega
    | ⟨1, _⟩ => show win2_3.index t (1 : Fin 2) * 128 + 1 * (j 1).val = win2_5.index t (1 : Fin 2) * 128 + 1 * (j 1).val; rw [e31, e51]
  · show (V c main_v44 : FVec Ideal S1x128 .f32) (((cfg2.win 4).blk t).view.emb (ix2 (0 : Fin 1) (j 1)))
      = (V c main_v44 : FVec Ideal S1x128 .f32) (ix2 (0 : Fin 1) (((cfg2.win 5).blk t).view.emb j 1))
    refine congrArg _ (funext fun a => Fin.ext ?_)
    match a with
    | ⟨0, _⟩ => show win2_4.index t (0 : Fin 2) * 1 + 1 * 0 = 0; rw [e40]
    | ⟨1, _⟩ => show win2_4.index t (1 : Fin 2) * 128 + 1 * (j 1).val = win2_5.index t (1 : Fin 2) * 128 + 1 * (j 1).val; rw [e41, e51]

/-- An index of the output array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- Row r of the output lies in the block of point r / 5000: the 20 blocks tile the 100000 rows. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, lt_of_lt_of_eq (show (i 0).val / 5000 < 20 by omega) N_2.symm⟩, flush2_5 _, ?_⟩
  rw [mem_blk]
  obtain ⟨-, -, -, -, -, -, -, -, -, -, e50, e51⟩ := idx_facts ⟨(i 0).val / 5000, lt_of_lt_of_eq (show (i 0).val / 5000 < 20 by omega) N_2.symm⟩
  intro a
  match a with
  | ⟨0, _⟩ =>
    show win2_5.index ⟨(i 0).val / 5000, _⟩ (0 : Fin 2) * 5000 ≤ (i 0).val
      ∧ (i 0).val < win2_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, _⟩ (1 : Fin 2) * 128 ≤ (i 1).val
      ∧ (i 1).val < win2_5.index ⟨(i 0).val / 5000, _⟩ (1 : Fin 2) * 128 + 128
    rw [e51]
    omega

/-- After the launch the output array is the layer of the arrays the launch found. -/
theorem arr_eq (c : Dev nD) : (dat2 V c).arrAt 5 cfg2.N = whole V c :=
  (dat2 V c).arrAt_eq_of_cover 5 (whole V c) (fun t _ => flushed_eq V c t) (cover)

end Cert.KernelIdeal.Region2

end
-- ==== Proof.RefLayers.lean ====
/-
  The reference, layer by layer.

  Each of its three layers gathers the rows of the current node features at the edges' source nodes (a negative
  index wrapped once), adds them up per destination node into an array of zeros (`agg`), and applies the dense stage
  `Dense.layer` to the features, that sum, the two transposed weight matrices and the bias; the first two layers
  rectify. The stage functions of the imported read-back module are exactly these, one layer on top of the other:
  `layer0`, `layer1`, `layer2`. The aggregation is never opened: it is one and the same function of the features
  and the edge list in all three layers.
-/
import proofs.«180709_j70875550319091_1_alg».proof.Proof.Gen.ReferenceIdeal.Read
import proofs.«180709_j70875550319091_1_alg».proof.Proof.LibGraphConvDense

noncomputable section

namespace Cert.ReferenceIdeal.Layers

open Cert.ReferenceIdeal Cert.ReferenceIdeal.Gen Cert.ReferenceIdeal.Read
open Idealize.ShloMosaic Idealize.ShloMosaic.ValueIdx

/-- The neighbour sum of node features h over the edge list e: rows of h gathered at the (wrapped) source nodes and
    added into zeros at the destination nodes. -/
def agg (h : FVec Ideal S100000x128 .f32) (e : IVec S2x640000 32) : FVec Ideal S100000x128 .f32 :=
  Host.scatterAdd (F := Ideal) scatter_S100000x128_S640000x1_S640000x128_1_0_0_1 (val_main_v11 (F := Ideal)) (val_main_v12 (F := Ideal) e)
    (Host.gather gather_S100000x128_S640000x1_S640000x128_1_0_n_n_0_1_1128 h (val_main_v9 (F := Ideal) e))

/-- One layer: the dense stage over the features, their neighbour sum, the transposed weights and the bias. -/
def layerOf (relu : Bool) (h : FVec Ideal S100000x128 .f32) (e : IVec S2x640000 32) (wroot wrel : FVec Ideal S128x128 .f32) (b : FVec Ideal S128 .f32) : FVec Ideal S100000x128 .f32 :=
  Dense.layer relu h (agg h e) (transpose S128x128 [1, 0] wroot transposes_S128x128_S128x128_1_0)
    (transpose S128x128 [1, 0] wrel transposes_S128x128_S128x128_1_0) (fun q => b (ix1 q))

theorem agg0 (x0 : FVec Ideal S100000x128 .f32) (x1 : IVec S2x640000 32) : val_main_v13 (F := Ideal) x0 x1 = agg x0 x1 := rfl

theorem layer0 (x0 : FVec Ideal S100000x128 .f32) (x1 : IVec S2x640000 32) (x2 : FVec Ideal S128x128 .f32) (x3 : FVec Ideal S128 .f32) (x4 : FVec Ideal S128x128 .f32) :
    val_main_v22 (F := Ideal) x0 x1 x2 x3 x4 = layerOf true x0 x1 x4 x2 x3 := by
  funext i
  obtain ⟨p, q, rfl⟩ : ∃ (p : Fin 100000) (q : Fin 128), i = ix2 p q := ⟨i 0, i 1, eq_ix2 i⟩
  unfold val_main_v22 val_main_v21 val_main_v18 val_main_v15 val_main_v17 val_main_v20 val_main_v19 val_main_call0_v0 val_main_call0_cst
    val_main_v14 val_main_v16
  exact Dense.hostRelu_apply dot_S100000x128_S128x128_S100000x128_1_0_0_1_n_n_wf bcast_S128_S1x128_1 bcast_S1x128_S100000x128_0_1
    bcast_S_S100000x128 x0 (val_main_v13 (F := Ideal) x0 x1) _ _ x3 p q

theorem agg1 (x0 : FVec Ideal S100000x128 .f32) (x1 : IVec S2x640000 32) (x2 : FVec Ideal S128x128 .f32) (x3 : FVec Ideal S128 .f32) (x4 : FVec Ideal S128x128 .f32) :
    val_main_v36 (F := Ideal) x0 x1 x2 x3 x4 = agg (val_main_v22 (F := Ideal) x0 x1 x2 x3 x4) x1 := rfl

theorem layer1 (x0 : FVec Ideal S100000x128 .f32) (x1 : IVec S2x640000 32) (x2 : FVec Ideal S128x128 .f32) (x3 : FVec Ideal S128 .f32) (x4 x5 : FVec Ideal S128x128 .f32) (x6 : FVec Ideal S128 .f32) (x7 : FVec Ideal S128x128 .f32) :
    val_main_v45 (F := Ideal) x0 x1 x2 x3 x4 x5 x6 x7 = layerOf true (val_main_v22 (F := Ideal) x0 x1 x2 x3 x4) x1 x7 x5 x6 := by
  funext i
  obtain ⟨p, q, rfl⟩ : ∃ (p : Fin 100000) (q : Fin 128), i = ix2 p q := ⟨i 0, i 1, eq_ix2 i⟩
  unfold val_main_v45 val_main_v44 val_main_v41 val_main_v38 val_main_v40 val_main_v43 val_main_v42 val_main_call1_v0 val_main_call1_cst
    val_main_v37 val_main_v39
  rw [agg1]
  exact Dense.hostRelu_apply dot_S100000x128_S128x128_S100000x128_1_0_0_1_n_n_wf bcast_S128_S1x128_1 bcast_S1x128_S100000x128_0_1
    bcast_S_S100000x128 (val_main_v22 (F := Ideal) x0 x1 x2 x3 x4) _ _ _ x6 p q

theorem agg2 (x0 : FVec Ideal S100000x128 .f32) (x1 : IVec S2x640000 32) (x2 : FVec Ideal S128x128 .f32) (x3 : FVec Ideal S128 .f32) (x4 x5 : FVec Ideal S128x128 .f32) (x6 : FVec Ideal S128 .f32) (x7 : FVec Ideal S128x128 .f32) :
    val_main_v59 (F := Ideal) x0 x1 x2 x3 x4 x5 x6 x7 = agg (val_main_v45 (F := Ideal) x0 x1 x2 x3 x4 x5 x6 x7) x1 := rfl

theorem layer2 (x0 : FVec Ideal S100000x128 .f32) (x1 : IVec S2x640000 32) (x2 : FVec Ideal S128x128 .f32) (x3 : FVec Ideal S128 .f32) (x4 x5 : FVec Ideal S128x128 .f32) (x6 : FVec Ideal S128 .f32) (x7 x8 : FVec Ideal S128x128 .f32) (x9 : FVec Ideal S128 .f32) (x10 : FVec Ideal S128x128 .f32) :
    val_main_v67 (F := Ideal) x0 x1 x2 x3 x4 x5 x6 x7 x8 x9 x10
      = layerOf false (val_main_v45 (F := Ideal) x0 x1 x2 x3 x4 x5 x6 x7) x1 x10 x8 x9 := by
  funext i
  obtain ⟨p, q, rfl⟩ : ∃ (p : Fin 100000) (q : Fin 128), i = ix2 p q := ⟨i 0, i 1, eq_ix2 i⟩
  unfold val_main_v67 val_main_v64 val_main_v61 val_main_v63 val_main_v66 val_main_v65 val_main_v60 val_main_v62
  rw [agg2]
  exact Dense.host_apply dot_S100000x128_S128x128_S100000x128_1_0_0_1_n_n_wf bcast_S128_S1x128_1 bcast_S1x128_S100000x128_0_1
    (val_main_v45 (F := Ideal) x0 x1 x2 x3 x4 x5 x6 x7) _ _ _ x9 p q

/-- The whole reference: three layers on the same edge list. -/
theorem all (x0 : FVec Ideal S100000x128 .f32) (x1 : IVec S2x640000 32) (x2 : FVec Ideal S128x128 .f32) (x3 : FVec Ideal S128 .f32) (x4 x5 : FVec Ideal S128x128 .f32) (x6 : FVec Ideal S128 .f32) (x7 x8 : FVec Ideal S128x128 .f32) (x9 : FVec Ideal S128 .f32) (x10 : FVec Ideal S128x128 .f32) :
    val_main_v67 (F := Ideal) x0 x1 x2 x3 x4 x5 x6 x7 x8 x9 x10
      = layerOf false (layerOf true (layerOf true x0 x1 x4 x2 x3) x1 x7 x5 x6) x1 x10 x8 x9 := by
  rw [layer2, layer1, layer0]

end Cert.ReferenceIdeal.Layers

end
-- ==== Proof.KernelValue.lean ====
/-
  The idealized kernel program's result as a function of its arguments.

  The program's buffer contents are followed from the launch to the return, boundary by boundary (`W0 … W6` of the
  imported frame module). A stretch of host operations computes, from the current node features h and the edge list,
  the neighbour sum of h (the very operations of the reference, so the reference's name `agg` for it is used), the two
  transposed weight matrices and the bias as a 1 x 128 row; a launch then leaves in its output the dense stage of
  those arrays (the region modules). The edge list's two index rows are computed once, before the first launch, and
  no launch or later stretch writes them; the weights and biases are arguments nobody writes. So the three outputs
  are the reference's three layers applied one after the other: `result_eq`.
-/
import proofs.«180709_j70875550319091_1_alg».proof.Proof.Gen.KernelIdeal.Frame
import proofs.«180709_j70875550319091_1_alg».proof.Proof.Region0
import proofs.«180709_j70875550319091_1_alg».proof.Proof.Region1
import proofs.«180709_j70875550319091_1_alg».proof.Proof.Region2
import proofs.«180709_j70875550319091_1_alg».proof.Proof.RefLayers
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## The neighbour sum over index rows already computed -/

/-- The host operations of one neighbour sum, over the source and destination rows as arrays: wrap a negative source
    index once, gather those rows of h, add them into zeros at the destination rows. -/
def aggRaw (h : FVec Ideal S100000x128 .f32) (src dst : (⟨S640000, .i32⟩ : BufTy).Contents (Elt Ideal)) : FVec Ideal S100000x128 .f32 :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- Over the edge list's own two rows it is the reference's neighbour sum. -/
theorem aggRaw_eq (h : FVec Ideal S100000x128 .f32) (e : IVec S2x640000 32) :
    aggRaw h (Cert.ReferenceIdeal.Read.val_main_v1 (F := Ideal) e) (Cert.ReferenceIdeal.Read.val_main_v3 (F := Ideal) e) = Cert.ReferenceIdeal.Layers.agg h e := rfl

/-! ## Before the first launch -/

theorem W1_arg0 : W1 m ρ c (Proc.devRef .tc main_arg0) = (m ((c.tc : Thread nD τ).loc main_arg0)) := by
  show StableHlo.after hostOps0 (W0 m ρ c) (Proc.devRef .tc main_arg0) = _
  after_results <;> rfl

/-- The edges' source row, as the reference computes it. -/
theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results <;> rfl

/-- The edges' destination row. -/
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results <;> rfl

theorem W1_v13 : W1 m ρ c (Proc.devRef .tc main_v13) = Cert.ReferenceIdeal.Layers.agg (m ((c.tc : Thread nD τ).loc main_arg0)) (m ((c.tc : Thread nD τ).loc main_arg1)) := by
  show StableHlo.after hostOps0 (W0 m ρ c) (Proc.devRef .tc main_v13) = _
  after_results <;> rfl

theorem W1_v14 : W1 m ρ c (Proc.devRef .tc main_v14)
    = transpose S128x128 [1, 0] (m ((c.tc : Thread nD τ).loc main_arg4)) transposes_S128x128_S128x128_1_0 := by
  show StableHlo.after hostOps0 (W0 m ρ c) (Proc.devRef .tc main_v14) = _
  after_results <;> rfl

theorem W1_v15 : W1 m ρ c (Proc.devRef .tc main_v15)
    = transpose S128x128 [1, 0] (m ((c.tc : Thread nD τ).loc main_arg2)) transposes_S128x128_S128x128_1_0 := by
  show StableHlo.after hostOps0 (W0 m ρ c) (Proc.devRef .tc main_v15) = _
  after_results <;> rfl

theorem W1_v16 : W1 m ρ c (Proc.devRef .tc main_v16) = shapeCast S1x128 (m ((c.tc : Thread nD τ).loc main_arg3)) shapeCasts_S128_S1x128 := by
  show StableHlo.after hostOps0 (W0 m ρ c) (Proc.devRef .tc main_v16) = _
  after_results <;> rfl

/-- The bias as a 1 x 128 row, read at (0, q), is the bias's entry q. -/
theorem biasRow (b : FVec Ideal S128 .f32) :
    (fun q : Fin 128 => shapeCast S1x128 b shapeCasts_S128_S1x128 (ix2 (0 : Fin 1) q)) = fun q => b (ix1 q) :=
  funext fun q => shapeCast_a_1a_apply b shapeCasts_S128_S1x128 0 q

/-- After the first launch its output holds the reference's first layer. -/
theorem W2_v17 : W2 m ρ c (Proc.devRef .tc main_v17)
    = Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3)) := by
  refine (W2_arr m ρ c 5).trans ?_
  rw [Region0.arr_eq (V1 m ρ) c]
  show Dense.layer (M := 100000) (K := 128) (N := 128) true (W1 m ρ c (Proc.devRef .tc main_arg0)) (W1 m ρ c (Proc.devRef .tc main_v13))
      (W1 m ρ c (Proc.devRef .tc main_v14)) (W1 m ρ c (Proc.devRef .tc main_v15))
      (fun q => (W1 m ρ c (Proc.devRef .tc main_v16) : FVec Ideal S1x128 .f32) (ix2 (0 : Fin 1) q)) = _
  rw [W1_arg0, W1_v13, W1_v14, W1_v15, W1_v16, biasRow]
  rfl

/-! ## Between the first and the second launch -/

theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_arg5 : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results <;> rfl)
theorem W2_arg6 : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results <;> rfl)
theorem W2_arg7 : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results <;> rfl)
theorem W2_arg8 : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results <;> rfl)
theorem W2_arg9 : W2 m ρ c (Proc.devRef .tc main_arg9) = (m ((c.tc : Thread nD τ).loc main_arg9)) :=
  (W2_of_ne m ρ c main_arg9 (by decide)).trans (by
    show StableHlo.after hostOps0 (W0 m ρ c) (Proc.devRef .tc main_arg9) = _
    after_results <;> rfl)
theorem W2_arg10 : W2 m ρ c (Proc.devRef .tc main_arg10) = (m ((c.tc : Thread nD τ).loc main_arg10)) :=
  (W2_of_ne m ρ c main_arg10 (by decide)).trans (by
    show StableHlo.after hostOps0 (W0 m ρ c) (Proc.devRef .tc main_arg10) = _
    after_results <;> rfl)

theorem W3_v17 : W3 m ρ c (Proc.devRef .tc main_v17) = (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) :=
  (show StableHlo.after hostOps1 (W2 m ρ c) (Proc.devRef .tc main_v17) = W2 m ρ c (Proc.devRef .tc main_v17) by
    after_results <;> rfl).trans (W2_v17 m ρ c)

/-- The second neighbour sum is taken of the first layer's output, over the same edge list. -/
theorem W3_v27 : W3 m ρ c (Proc.devRef .tc main_v27) = Cert.ReferenceIdeal.Layers.agg (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg1)) :=
  (show StableHlo.after hostOps1 (W2 m ρ c) (Proc.devRef .tc main_v27)
      = aggRaw (W2 m ρ c (Proc.devRef .tc main_v17)) (W2 m ρ c (Proc.devRef .tc main_v1)) (W2 m ρ c (Proc.devRef .tc main_v3)) by
    after_results <;> rfl).trans (by rw [W2_v17, W2_v1, W2_v3, aggRaw_eq])

theorem W3_v28 : W3 m ρ c (Proc.devRef .tc main_v28) = transpose S128x128 [1, 0] (m ((c.tc : Thread nD τ).loc main_arg7)) transposes_S128x128_S128x128_1_0 :=
  (show StableHlo.after hostOps1 (W2 m ρ c) (Proc.devRef .tc main_v28)
      = transpose S128x128 [1, 0] (W2 m ρ c (Proc.devRef .tc main_arg7)) transposes_S128x128_S128x128_1_0 by
    after_results <;> rfl).trans (by rw [W2_arg7])
theorem W3_v29 : W3 m ρ c (Proc.devRef .tc main_v29) = transpose S128x128 [1, 0] (m ((c.tc : Thread nD τ).loc main_arg5)) transposes_S128x128_S128x128_1_0 :=
  (show StableHlo.after hostOps1 (W2 m ρ c) (Proc.devRef .tc main_v29)
      = transpose S128x128 [1, 0] (W2 m ρ c (Proc.devRef .tc main_arg5)) transposes_S128x128_S128x128_1_0 by
    after_results <;> rfl).trans (by rw [W2_arg5])
theorem W3_v30 : W3 m ρ c (Proc.devRef .tc main_v30) = shapeCast S1x128 (m ((c.tc : Thread nD τ).loc main_arg6)) shapeCasts_S128_S1x128 :=
  (show StableHlo.after hostOps1 (W2 m ρ c) (Proc.devRef .tc main_v30)
      = shapeCast S1x128 (W2 m ρ c (Proc.devRef .tc main_arg6)) shapeCasts_S128_S1x128 by
    after_results <;> rfl).trans (by rw [W2_arg6])

/-- After the second launch its output holds the reference's second layer. -/
theorem W4_v31 : W4 m ρ c (Proc.devRef .tc main_v31) = (Cert.ReferenceIdeal.Layers.layerOf true (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg1)) (m ((c.tc : Thread nD τ).loc main_arg7)) (m ((c.tc : Thread nD τ).loc main_arg5)) (m ((c.tc : Thread nD τ).loc main_arg6))) := by
  refine (W4_arr m ρ c 5).trans ?_
  rw [Region1.arr_eq (V3 m ρ) c]
  show Dense.layer (M := 100000) (K := 128) (N := 128) true (W3 m ρ c (Proc.devRef .tc main_v17)) (W3 m ρ c (Proc.devRef .tc main_v27))
      (W3 m ρ c (Proc.devRef .tc main_v28)) (W3 m ρ c (Proc.devRef .tc main_v29))
      (fun q => (W3 m ρ c (Proc.devRef .tc main_v30) : FVec Ideal S1x128 .f32) (ix2 (0 : Fin 1) q)) = _
  rw [W3_v17, W3_v27, W3_v28, W3_v29, W3_v30, biasRow]
  rfl

/-! ## Between the second and the third launch -/

theorem W4_v1 : W4 m ρ c (Proc.devRef .tc main_v1) = Cert.ReferenceIdeal.Read.val_main_v1 (F := Ideal) (m ((c.tc : Thread nD τ).loc main_arg1)) :=
  (W4_of_ne m ρ c main_v1 (by decide)).trans ((show StableHlo.after hostOps1 (W2 m ρ c) (Proc.devRef .tc main_v1)
      = W2 m ρ c (Proc.devRef .tc main_v1) by after_results <;> rfl).trans (W2_v1 m ρ c))
theorem W4_v3 : W4 m ρ c (Proc.devRef .tc main_v3) = Cert.ReferenceIdeal.Read.val_main_v3 (F := Ideal) (m ((c.tc : Thread nD τ).loc main_arg1)) :=
  (W4_of_ne m ρ c main_v3 (by decide)).trans ((show StableHlo.after hostOps1 (W2 m ρ c) (Proc.devRef .tc main_v3)
      = W2 m ρ c (Proc.devRef .tc main_v3) by after_results <;> rfl).trans (W2_v3 m ρ c))
theorem W4_arg8 : W4 m ρ c (Proc.devRef .tc main_arg8) = (m ((c.tc : Thread nD τ).loc main_arg8)) :=
  (W4_of_ne m ρ c main_arg8 (by decide)).trans ((show StableHlo.after hostOps1 (W2 m ρ c) (Proc.devRef .tc main_arg8)
      = W2 m ρ c (Proc.devRef .tc main_arg8) by after_results <;> rfl).trans (W2_arg8 m ρ c))
theorem W4_arg9 : W4 m ρ c (Proc.devRef .tc main_arg9) = (m ((c.tc : Thread nD τ).loc main_arg9)) :=
  (W4_of_ne m ρ c main_arg9 (by decide)).trans ((show StableHlo.after hostOps1 (W2 m ρ c) (Proc.devRef .tc main_arg9)
      = W2 m ρ c (Proc.devRef .tc main_arg9) by after_results <;> rfl).trans (W2_arg9 m ρ c))
theorem W4_arg10 : W4 m ρ c (Proc.devRef .tc main_arg10) = (m ((c.tc : Thread nD τ).loc main_arg10)) :=
  (W4_of_ne m ρ c main_arg10 (by decide)).trans ((show StableHlo.after hostOps1 (W2 m ρ c) (Proc.devRef .tc main_arg10)
      = W2 m ρ c (Proc.devRef .tc main_arg10) by after_results <;> rfl).trans (W2_arg10 m ρ c))

theorem W5_v31 : W5 m ρ c (Proc.devRef .tc main_v31) = (Cert.ReferenceIdeal.Layers.layerOf true (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg1)) (m ((c.tc : Thread nD τ).loc main_arg7)) (m ((c.tc : Thread nD τ).loc main_arg5)) (m ((c.tc : Thread nD τ).loc main_arg6))) :=
  (show StableHlo.after hostOps2 (W4 m ρ c) (Proc.devRef .tc main_v31) = W4 m ρ c (Proc.devRef .tc main_v31) by
    after_results <;> rfl).trans (W4_v31 m ρ c)

/-- The third neighbour sum is taken of the second layer's output, over the same edge list. -/
theorem W5_v41 : W5 m ρ c (Proc.devRef .tc main_v41) = Cert.ReferenceIdeal.Layers.agg (Cert.ReferenceIdeal.Layers.layerOf true (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg1)) (m ((c.tc : Thread nD τ).loc main_arg7)) (m ((c.tc : Thread nD τ).loc main_arg5)) (m ((c.tc : Thread nD τ).loc main_arg6))) (m ((c.tc : Thread nD τ).loc main_arg1)) :=
  (show StableHlo.after hostOps2 (W4 m ρ c) (Proc.devRef .tc main_v41)
      = aggRaw (W4 m ρ c (Proc.devRef .tc main_v31)) (W4 m ρ c (Proc.devRef .tc main_v1)) (W4 m ρ c (Proc.devRef .tc main_v3)) by
    after_results <;> rfl).trans (by rw [W4_v31, W4_v1, W4_v3, aggRaw_eq])

theorem W5_v42 : W5 m ρ c (Proc.devRef .tc main_v42) = transpose S128x128 [1, 0] (m ((c.tc : Thread nD τ).loc main_arg10)) transposes_S128x128_S128x128_1_0 :=
  (show StableHlo.after hostOps2 (W4 m ρ c) (Proc.devRef .tc main_v42)
      = transpose S128x128 [1, 0] (W4 m ρ c (Proc.devRef .tc main_arg10)) transposes_S128x128_S128x128_1_0 by
    after_results <;> rfl).trans (by rw [W4_arg10])
theorem W5_v43 : W5 m ρ c (Proc.devRef .tc main_v43) = transpose S128x128 [1, 0] (m ((c.tc : Thread nD τ).loc main_arg8)) transposes_S128x128_S128x128_1_0 :=
  (show StableHlo.after hostOps2 (W4 m ρ c) (Proc.devRef .tc main_v43)
      = transpose S128x128 [1, 0] (W4 m ρ c (Proc.devRef .tc main_arg8)) transposes_S128x128_S128x128_1_0 by
    after_results <;> rfl).trans (by rw [W4_arg8])
theorem W5_v44 : W5 m ρ c (Proc.devRef .tc main_v44) = shapeCast S1x128 (m ((c.tc : Thread nD τ).loc main_arg9)) shapeCasts_S128_S1x128 :=
  (show StableHlo.after hostOps2 (W4 m ρ c) (Proc.devRef .tc main_v44)
      = shapeCast S1x128 (W4 m ρ c (Proc.devRef .tc main_arg9)) shapeCasts_S128_S1x128 by
    after_results <;> rfl).trans (by rw [W4_arg9])

/-- After the third launch its output, the program's result, holds the reference's third layer. -/
theorem W6_v45 : W6 m ρ c (Proc.devRef .tc main_v45) = (Cert.ReferenceIdeal.Layers.layerOf false (Cert.ReferenceIdeal.Layers.layerOf true (Cert.ReferenceIdeal.Layers.layerOf true (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg1)) (m ((c.tc : Thread nD τ).loc main_arg7)) (m ((c.tc : Thread nD τ).loc main_arg5)) (m ((c.tc : Thread nD τ).loc main_arg6))) (m ((c.tc : Thread nD τ).loc main_arg1)) (m ((c.tc : Thread nD τ).loc main_arg10)) (m ((c.tc : Thread nD τ).loc main_arg8)) (m ((c.tc : Thread nD τ).loc main_arg9))) := by
  refine (W6_arr m ρ c 5).trans ?_
  rw [Region2.arr_eq (V5 m ρ) c]
  show Dense.layer (M := 100000) (K := 128) (N := 128) false (W5 m ρ c (Proc.devRef .tc main_v31)) (W5 m ρ c (Proc.devRef .tc main_v41))
      (W5 m ρ c (Proc.devRef .tc main_v42)) (W5 m ρ c (Proc.devRef .tc main_v43))
      (fun q => (W5 m ρ c (Proc.devRef .tc main_v44) : FVec Ideal S1x128 .f32) (ix2 (0 : Fin 1) q)) = _
  rw [W5_v31, W5_v41, W5_v42, W5_v43, W5_v44, biasRow]
  rfl

/-- The program's result is the reference's result term of the same arguments. -/
theorem result_eq : W6 m ρ c (Proc.devRef .tc main_v45)
    = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W6_v45 m ρ c).trans (Cert.ReferenceIdeal.Layers.all _ _ _ _ _ _ _ _ _ _ _).symm

end Cert.KernelIdeal.Whole

end
-- ==== Proof.lean ====
/-
  The certificate: the tile kernel's three-layer graph convolution against the plain reference, on the extended reals.

  Both programs compute, three times over, h ↦ rect((h · Wrootᵀ + agg(h) · Wrelᵀ) + b), where agg(h) adds up, for every
  node, the rows of h at the sources of its incoming edges; the first two layers rectify (max with 0), the last does
  not. They differ only in how the dense stage is evaluated: the reference by two host matrix products over all
  100000 rows, the kernel by a grid of 20 tiles of 5000 rows, each casting its operands to a narrower float format
  (the identity on the extended reals) and using the matrix unit. Entry by entry both are the same sums in the same
  grouping (Proof/LibGraphConvDense.lean), an entry of the layer reads one row of the features, so the tiles' blocks are blocks
  of the whole-array layer (Proof/Region0–2.lean), and the neighbour sums are the same host operations on both sides
  and are carried as one function (Proof/RefLayers.lean, Proof/KernelValue.lean). No law of arithmetic beyond the
  definitions is used, so the precondition is never opened. The ideal pass rewrote nothing: the preservation
  conjunct is trivial.
-/
import proofs.«180709_j70875550319091_1_alg».proof.Defs
import proofs.«180709_j70875550319091_1_alg».proof.Proof.Gen.Kernel
import proofs.«180709_j70875550319091_1_alg».proof.Proof.Gen.Kernel.Frame
import proofs.«180709_j70875550319091_1_alg».proof.Proof.Gen.KernelIdeal
import proofs.«180709_j70875550319091_1_alg».proof.Proof.Gen.KernelIdeal.Frame
import proofs.«180709_j70875550319091_1_alg».proof.Proof.Gen.ReferenceIdeal
import proofs.«180709_j70875550319091_1_alg».proof.Proof.Gen.ReferenceIdeal.Run
import proofs.«180709_j70875550319091_1_alg».proof.Proof.Gen.ReferenceIdeal.Read
import proofs.«180709_j70875550319091_1_alg».proof.Proof.Gen.Pre_finite_inputs
import proofs.«180709_j70875550319091_1_alg».proof.Proof.KernelRun
import proofs.«180709_j70875550319091_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's result term of the arguments, and the arguments agree. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v67_eq m' c).trans ?_).trans (Cert.KernelIdeal.Whole.result_eq m ρ c).symm
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
